-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 44
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S128x128, .f32⟩
  | .hbm, ⟨24, _⟩ => ⟨S128x128, .bf16⟩
  | .hbm, ⟨25, _⟩ => ⟨S1x128, .f32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S128x128, .f32⟩
  | .hbm, ⟨41, _⟩ => ⟨S128x128, .bf16⟩
  | .hbm, ⟨42, _⟩ => ⟨S1x128, .f32⟩
  | .hbm, ⟨43, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .bf16⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S128x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel program's run, with its two result arrays named.

  The program is four segments: host operations, the first pallas call, host operations, the second pallas call. Its
  frame run ends with every buffer at the contents of the last segment boundary, the fold `W4` of the four segments over
  the launch memory. Here that run is stated with the two result buffers read at `W4` beside the six arguments, which
  end as launched; the segments, their proof data and the launch are the frame's own.
-/
import proofs.«120102_j72043781423169_1_alg».proof.Proof.Gen.KernelIdeal.Frame

set_option maxRecDepth 16384

noncomputable section

namespace Cert.Gin.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the output features and the hidden
    features at the last boundary's contents and the arguments as launched. -/
theorem run_results : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_v17) = W4 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       h c _ (mem_uc main_v17 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.Gin.Kernel

end
-- ==== Proof.LibPlainDot.lean ====
/-
  A plain matrix product read at an index.

  For the dimension numbers of an `M×K` by `K×N` product (contract the left operand's columns with the right operand's
  rows, no batch axis), the left operand's index at result index `(p, q)` and contraction position `k` is `(p, k)` and the
  right operand's is `(k, q)`. So, at the exact values, the vector unit's product into the zero accumulator and the
  host's `dot_general` are both, at `(p, q)`, the sum over `k` of `l (p, k) · r (k, q)`.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- One axis is contracted, of extent `K`. -/
theorem contr_rank : (DotDims.plain M K N).contr.rank = 1 := rfl
theorem contr_size : (DotDims.plain M K N).contr.size ⟨0, by rw [contr_rank]; exact Nat.one_pos⟩ = K := rfl

/-- The contraction positions are the numbers below `K`. -/
abbrev pos : (DotDims.plain M K N).contr.Idx ≃ Fin K := contrEquiv1 (DotDims.plain M K N) K (contr_rank M K N) (contr_size M K N)

/-- On its row axis the left operand follows the result's row. -/
theorem lhsIdx_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its column axis the right operand follows the result's column. -/
theorem rhsIdx_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand is read at `(p, k)`. -/
theorem lhsIdx_eq (p : Fin M) (q : Fin N) (k : Fin K) :
    (DotDims.plain M K N).lhsIdx (ix2 p q) ((pos M K N).symm k) = ix2 p k := by
  have hk := contrEquiv1_symm_val (DotDims.plain M K N) K (contr_rank M K N) (contr_size M K N) k
  funext a
  apply Fin.ext
  match a with
  | ⟨0, _⟩ => exact lhsIdx_row M K N _ _
  | ⟨1, _⟩ => exact ((DotDims.plain M K N).lhsIdx_val_of_single (cl := (1 : Fin 2)) rfl _ _).trans hk

/-- The right operand is read at `(k, q)`. -/
theorem rhsIdx_eq (p : Fin M) (q : Fin N) (k : Fin K) :
    (DotDims.plain M K N).rhsIdx (ix2 p q) ((pos M K N).symm k) = ix2 k q := by
  have hk := contrEquiv1_symm_val (DotDims.plain M K N) K (contr_rank M K N) (contr_size M K N) k
  funext a
  apply Fin.ext
  match a with
  | ⟨0, _⟩ => exact ((DotDims.plain M K N).rhsIdx_val_of_single (cr := (0 : Fin 2)) rfl _ _).trans hk
  | ⟨1, _⟩ => exact rhsIdx_col M K N _ _

variable {M K N}

/-- The sum over contraction positions is the sum over `k < K` of the operands at `(p, k)` and `(k, q)`. -/
theorem sum_contr {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k) : EReal)
      = ∑ k : Fin K, l (ix2 p k) * r (ix2 k q) := by
  rw [← Equiv.sum_comp (pos M K N).symm]
  refine Finset.sum_congr rfl fun k _ => ?_
  rw [lhsIdx_eq, rhsIdx_eq]

/-- The vector unit's product into the zero accumulator, at `(p, q)`. -/
theorem matmul_zero_apply {φ₁ φ₂ : FTy} (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant ⟨2, ![M, N]⟩ .f32 0x00000000#32) (ix2 p q) = ∑ k : Fin K, l (ix2 p k) * r (ix2 k q) :=
  (Ideal.matmul_constant_zero_apply _ prec l r _).trans (sum_contr l r p q)

/-- The host's `dot_general`, at `(p, q)`. -/
theorem dotGeneral_apply {φ₁ φ₂ : FTy} (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply _ prec sched l r _).trans (sum_contr l r p q)

end Cert.PlainDot

end
-- ==== Proof.KernelBody.lean ====
/-
  What the kernel's body computes from its four blocks, read at an index.

  At a grid point the body holds a block of 5000 rows of the node features (`x0`) and of the neighbour sums (`x1`), the
  whole transposed weight matrix (`x2`, one row per input feature) and the bias as one row (`x3`). It adds the two
  feature blocks, multiplies the sum by the weights into a zero accumulator, and adds the bias row to every row. At row
  `r` of the block and output feature `q` that is

      Σ_k (x0[r, k] + x1[r, k]) · x2[k, q]  +  x3[0, q]:

  the narrowing of the sum to bf16 is the identity on exact values, the casts of a block to its own shape change
  nothing, and the product into the zero accumulator is the plain sum over the contracted axis. The two pallas calls
  run the same body (the second spells one more cast of a block to its own shape).
-/
import proofs.«120102_j72043781423169_1_alg».proof.Proof.Gen.KernelIdeal.Skeleton
import proofs.«120102_j72043781423169_1_alg».proof.Proof.LibPlainDot
import Idealize.ShloMosaic.Lib.ValueIdx
import Idealize.ShloMosaic.Lib.ValueLayout
import Idealize.ShloMosaic.Lib.Pipeline.Value

noncomputable section

open scoped BigOperators

namespace Cert.Gin.Kernel

open Cert.KernelIdeal Cert.KernelIdeal.Gen
open Idealize.ShloMosaic Idealize.ShloMosaic.TcCoe Idealize.ShloMosaic.ValueIdx

/-- The sum of two feature blocks, narrowed, times the weights into the zero accumulator, at `(r, q)`. -/
theorem product_apply (x0 x1 : FVec Ideal S5000x128 .f32) (x2 : FVec Ideal S128x128 .bf16) (r : Fin 5000) (q : Fin 128) :
    matmul (F := Ideal) dot_S5000x128_S128x128_S5000x128_1_0_0_1_n_n none (truncf .bf16 (addf x0 x1) bitsLt_bf16_f32) x2
        (constant S5000x128 .f32 0x00000000#32) (ix2 r q)
      = ∑ k : Fin 128, (x0 (ix2 r k) + x1 (ix2 r k)) * x2 (ix2 k q) :=
  (Cert.PlainDot.matmul_zero_apply (M := 5000) (K := 128) (N := 128) none (truncf .bf16 (addf x0 x1) bitsLt_bf16_f32) x2 r q).trans
    (Finset.sum_congr rfl fun k _ => by rw [truncf_apply, addf_apply])

/-- The first call's body at `(r, q)`. -/
theorem pay0_apply (x0 x1 : FVec Ideal S5000x128 .f32) (x2 : FVec Ideal S128x128 .bf16) (x3 : FVec Ideal S1x128 .f32)
    (r : Fin 5000) (q : Fin 128) :
    k0_pay1 (F := Ideal) x0 x1 x2 x3 (ix2 r q)
      = (∑ k : Fin 128, (x0 (ix2 r k) + x1 (ix2 r k)) * x2 (ix2 k q)) + x3 (ix2 (0 : Fin 1) q) := by
  unfold k0_pay1
  rw [shapeCast_self, shapeCast_self, shapeCast_self]
  refine (addf_apply _ _ _).trans ?_
  rw [broadcastTo_1b_ab_apply x3 broadcasts_S1x128_S5000x128 r q]
  exact congrArg (· + x3 (ix2 (0 : Fin 1) q)) (product_apply x0 x1 x2 r q)

/-- The second call's body at `(r, q)`: the same function of its blocks. -/
theorem pay1_apply (x0 x1 : FVec Ideal S5000x128 .f32) (x2 : FVec Ideal S128x128 .bf16) (x3 : FVec Ideal S1x128 .f32)
    (r : Fin 5000) (q : Fin 128) :
    k1_pay1 (F := Ideal) x0 x1 x2 x3 (ix2 r q)
      = (∑ k : Fin 128, (x0 (ix2 r k) + x1 (ix2 r k)) * x2 (ix2 k q)) + x3 (ix2 (0 : Fin 1) q) := by
  unfold k1_pay1
  rw [shapeCast_self, shapeCast_self, shapeCast_self, shapeCast_self]
  refine (addf_apply _ _ _).trans ?_
  rw [broadcastTo_1b_ab_apply x3 broadcasts_S1x128_S5000x128 r q]
  exact congrArg (· + x3 (ix2 (0 : Fin 1) q)) (product_apply x0 x1 x2 r q)

end Cert.Gin.Kernel

end
-- ==== Proof.GinLayer.lean ====
/-
  One layer of the graph network, read at an index.

  For node features `a` (one row per node), neighbour sums `s` (same shape), a weight matrix `W` (one row per output
  feature) and a bias `b`, the layer's value at node `p` and output feature `q` is

      Σ_k (a[p, k] + s[p, k]) · W[q, k]  +  b[q].

  The same number is reached from the transposed weights `Wt[k, q] = W[q, k]` and the bias laid out as one row
  `br[0, q] = b[q]`: transposing only renames the entry that is read, and the row layout only adds a unit coordinate.
  Nothing here needs the entries to be finite: the two forms are the same sum of the same products.
-/
import Idealize.ShloMosaic.Lib.ValueIdx
import Idealize.ShloMosaic.Lib.ValueLayout

noncomputable section

open scoped BigOperators

namespace Cert.Gin

open Idealize.ShloMosaic Idealize.ShloMosaic.ValueIdx

/-- Node features: 100000 nodes, 128 features each. -/
abbrev Nodes : Shape := ⟨2, ![100000, 128]⟩
/-- A square weight matrix. -/
abbrev Weights : Shape := ⟨2, ![128, 128]⟩
/-- A bias vector. -/
abbrev Bias : Shape := ⟨1, ![128]⟩
/-- A bias laid out as one row. -/
abbrev BiasRow : Shape := ⟨2, ![1, 128]⟩

/-- The layer at node `p`, output feature `q`: the row `a[p] + s[p]` against row `q` of `W`, plus `b[q]`. -/
def layerAt (a s : FVec Ideal Nodes .f32) (W : FVec Ideal Weights .f32) (b : FVec Ideal Bias .f32)
    (p : Fin 100000) (q : Fin 128) : EReal :=
  (∑ k : Fin 128, (a (ix2 p k) + s (ix2 p k)) * W (ix2 q k)) + b (ix1 q)

/-- The layer as an array. -/
def layer (a s : FVec Ideal Nodes .f32) (W : FVec Ideal Weights .f32) (b : FVec Ideal Bias .f32) :
    FVec Ideal Nodes .f32 :=
  fun i => layerAt a s W b (i 0) (i 1)

theorem layer_apply (a s : FVec Ideal Nodes .f32) (W : FVec Ideal Weights .f32) (b : FVec Ideal Bias .f32)
    (p : Fin 100000) (q : Fin 128) : layer a s W b (ix2 p q) = layerAt a s W b p q := rfl

/-- The layer from transposed weights (one row per input feature, any float format) and a bias row. -/
def rowLayerAt {φ : FTy} (a s : FVec Ideal Nodes .f32) (Wt : FVec Ideal Weights φ) (br : FVec Ideal BiasRow .f32)
    (p : Fin 100000) (q : Fin 128) : EReal :=
  (∑ k : Fin 128, (a (ix2 p k) + s (ix2 p k)) * Wt (ix2 k q)) + br (ix2 (0 : Fin 1) q)

/-- That form as an array. -/
def rowLayer {φ : FTy} (a s : FVec Ideal Nodes .f32) (Wt : FVec Ideal Weights φ) (br : FVec Ideal BiasRow .f32) :
    FVec Ideal Nodes .f32 :=
  fun i => rowLayerAt a s Wt br (i 0) (i 1)

theorem rowLayer_apply {φ : FTy} (a s : FVec Ideal Nodes .f32) (Wt : FVec Ideal Weights φ) (br : FVec Ideal BiasRow .f32)
    (p : Fin 100000) (q : Fin 128) : rowLayer a s Wt br (ix2 p q) = rowLayerAt a s Wt br p q := rfl

/-- With the weights transposed (and narrowed to bf16, the identity on exact values) and the bias cast to a row, the
    row form is the layer. -/
theorem rowLayer_transposed (a s : FVec Ideal Nodes .f32) (W : FVec Ideal Weights .f32) (b : FVec Ideal Bias .f32)
    (ht : Weights.Transposes [1, 0] Weights) (hlt : FTy.bits .bf16 < FTy.bits .f32) (hc : Bias.ShapeCasts BiasRow) :
    rowLayer a s (truncf .bf16 (transpose Weights [1, 0] W ht) hlt) (shapeCast BiasRow b hc) = layer a s W b := by
  funext i
  show rowLayerAt a s _ _ (i 0) (i 1) = layerAt a s W b (i 0) (i 1)
  unfold rowLayerAt layerAt
  rw [shapeCast_a_1a_apply b hc (0 : Fin 1) (i 1)]
  refine congrArg (· + b (ix1 (i 1))) (Finset.sum_congr rfl fun k _ => ?_)
  rw [truncf_apply, transpose_ix2_apply W ht k (i 1)]

end Cert.Gin

end
-- ==== Proof.KernelRegion.lean ====
/-
  From blocks to arrays: what each pallas call leaves in its output array.

  Each call runs its body at 20 grid points. At point `t` the body sees rows `5000 t … 5000 t + 4999` of the node
  features and of the neighbour sums, the whole transposed weight matrix and the whole bias row, and writes rows
  `5000 t … 5000 t + 4999` of the output. Row `r` of the block is row `5000 t + r` of the array, so what point `t`
  writes back is block `t` of ONE function of the four arrays — the layer in its row form — and since the 20 blocks
  tile the 100000 rows, the output array ends holding that function. Everything is stated at the contents `V` the
  call finds when it is entered, whatever they are.
-/
import proofs.«120102_j72043781423169_1_alg».proof.Proof.Gen.KernelIdeal.Frame
import proofs.«120102_j72043781423169_1_alg».proof.Proof.KernelBody
import proofs.«120102_j72043781423169_1_alg».proof.Proof.GinLayer
import Idealize.ShloMosaic.Lib.Pipeline.Value

noncomputable section

open scoped BigOperators

namespace Cert.Gin.Kernel

open Cert.KernelIdeal Cert.KernelIdeal.Gen Cert.Gin
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- One element of a point's result is the layer's row form at the matching element of the array: the body's value at
    `(r, q)` of the block, over blocks that are rows `5000 t + r` of the feature arrays, is the row form at
    `(5000 t + r, q)`. -/
theorem point_eq (a s : FVec Ideal S100000x128 .f32) (wt : FVec Ideal S128x128 .bf16) (br : FVec Ideal S1x128 .f32)
    (x0 x1 : FVec Ideal S5000x128 .f32) (x2 : FVec Ideal S128x128 .bf16) (x3 : FVec Ideal S1x128 .f32) (t : ℕ)
    (pay : FVec Ideal S5000x128 .f32)
    (hpay : ∀ (r : Fin 5000) (q : Fin 128), pay (ix2 r q)
      = (∑ k : Fin 128, (x0 (ix2 r k) + x1 (ix2 r k)) * x2 (ix2 k q)) + x3 (ix2 (0 : Fin 1) q))
    (h2 : x2 = wt) (h3 : x3 = br)
    (h0 : ∀ (y : S5000x128.Idx) (i : S100000x128.Idx), (i 0).val = t * 5000 + (y 0).val → (i 1).val = (y 1).val → x0 y = a i)
    (h1 : ∀ (y : S5000x128.Idx) (i : S100000x128.Idx), (i 0).val = t * 5000 + (y 0).val → (i 1).val = (y 1).val → x1 y = s i)
    (y : S5000x128.Idx) (i : S100000x128.Idx) (hi0 : (i 0).val = t * 5000 + (y 0).val) (hi1 : (i 1).val = (y 1).val) :
    pay y = rowLayer a s wt br i := by
  obtain ⟨r, q, rfl⟩ : ∃ (r : Fin 5000) (q : Fin 128), y = ix2 r q := ⟨y 0, y 1, eq_ix2 y⟩
  obtain ⟨p, q', rfl⟩ : ∃ (p : Fin 100000) (q' : Fin 128), i = ix2 p q' := ⟨i 0, i 1, eq_ix2 i⟩
  have hq : q' = q := Fin.ext hi1
  subst hq
  subst h2
  subst h3
  rw [hpay, rowLayer_apply]
  unfold rowLayerAt
  refine congrArg (· + x3 (ix2 (0 : Fin 1) q')) (Finset.sum_congr rfl fun k _ => ?_)
  rw [h0 (ix2 r k) (ix2 p k) hi0 rfl, h1 (ix2 r k) (ix2 p k) hi0 rfl]

variable (V : (c : Dev nD) → (b : Ref sig .tc) → Buf (Elt Ideal) ((c : Thread nD τ).loc b))

/-! ## Pallas call 0 -/

/-- The printed index maps of call 0, over its 20 grid points: the two feature windows and the output window sit at
    block `(t, 0)`; the weight and bias windows always at block `(0, 0)`. -/
theorem index_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 20 :=
  (by decide +kernel : ∀ t : Fin grid0.N, _)

/-- Every block of 5000 rows is some grid point's output block. -/
theorem index_onto0 : ∀ q0 : Fin 20, ∃ t : Fin cfg0.N, win0_4.index t = ![q0.val, 0] :=
  (by decide +kernel : ∀ q0 : Fin 20, ∃ t : Fin grid0.N, win0_4.index t = ![q0.val, 0])

/-- A feature block at point `t`, at `(r, k)`, is the array at row `5000 t + r`. -/
theorem block0_0 (c : Dev nD) (t : Fin cfg0.N) (y : S5000x128.Idx) (i : S100000x128.Idx)
    (h0 : (i 0).val = t.val * 5000 + (y 0).val) (h1 : (i 1).val = (y 1).val) :
    iblk0 V c 0 t y = V c main_arg0 i := by
  obtain ⟨e00, e01, -⟩ := index_facts0 t
  show V c main_arg0 (((cfg0.win 0).blk t).view.emb y) = V c main_arg0 i
  refine congrArg (V c main_arg0) (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The same for the block of neighbour sums. -/
theorem block0_1 (c : Dev nD) (t : Fin cfg0.N) (y : S5000x128.Idx) (i : S100000x128.Idx)
    (h0 : (i 0).val = t.val * 5000 + (y 0).val) (h1 : (i 1).val = (y 1).val) :
    iblk0 V c 1 t y = V c main_v13 i := by
  obtain ⟨-, -, e10, e11, -⟩ := index_facts0 t
  show V c main_v13 (((cfg0.win 1).blk t).view.emb y) = V c main_v13 i
  refine congrArg (V c main_v13) (funext fun a => Fin.ext ?_)
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- The weight window's block is the whole transposed weight matrix, at every point. -/
theorem block0_2 (c : Dev nD) (t : Fin cfg0.N) : iblk0 V c 2 t = V c main_v15 := by
  obtain ⟨-, -, -, -, e20, e21, -⟩ := index_facts0 t
  funext y
  show V c main_v15 (((cfg0.win 2).blk t).view.emb y) = V c main_v15 y
  refine congrArg (V c main_v15) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias window's block is the whole bias row, at every point. -/
theorem block0_3 (c : Dev nD) (t : Fin cfg0.N) : iblk0 V c 3 t = V c main_v16 := by
  obtain ⟨-, -, -, -, -, -, e30, e31, -⟩ := index_facts0 t
  funext y
  show V c main_v16 (((cfg0.win 3).blk t).view.emb y) = V c main_v16 y
  refine congrArg (V c main_v16) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- WHAT POINT `t` WRITES BACK is block `t` of the layer (in its row form) of the arrays the call finds. -/
theorem flushed0 (c : Dev nD) (t : Fin cfg0.N) :
    (dat0 (F := Ideal) V c).flushed 4 t
      = ((cfg0.win 4).blk t).view.read (Elt Ideal) (rowLayer (φ := .bf16) (V c main_arg0) (V c main_v13) (V c main_v15) (V c main_v16)) := by
  show (cfg0.win 4).cut (grid0.coords t) ((dat0 (F := Ideal) V c).after 4 t) = _
  rw [after0_4]
  unfold out0_4
  rw [View.canon_unit_zero hz]
  simp only [View.ld_unit_zero (S := S5000x128) hz, View.ld_unit_zero (S := S128x128) hz, View.ld_unit_zero (S := S1x128) hz]
  obtain ⟨-, -, -, -, -, -, -, -, e40, e41, -⟩ := index_facts0 t
  funext y
  have hy0 : (y 0).val < 5000 := (y 0).isLt
  exact point_eq (V c main_arg0) (V c main_v13) (V c main_v15) (V c main_v16) (iblk0 V c 0 t) (iblk0 V c 1 t) (iblk0 V c 2 t) (iblk0 V c 3 t) t.val
    (k0_pay1 (F := Ideal) (iblk0 V c 0 t) (iblk0 V c 1 t) (iblk0 V c 2 t) (iblk0 V c 3 t))
    (pay0_apply (iblk0 V c 0 t) (iblk0 V c 1 t) (iblk0 V c 2 t) (iblk0 V c 3 t))
    (block0_2 V c t) (block0_3 V c t)
    (fun y i h0 h1 => block0_0 V c t y i h0 h1) (fun y i h0 h1 => block0_1 V c t y i h0 h1) y
    (((cfg0.win 4).blk t).view.emb y)
    (show win0_4.index t (0 : Fin 2) * 5000 + 1 * (y 0).val = t.val * 5000 + (y 0).val by omega)
    (show win0_4.index t (1 : Fin 2) * 128 + 1 * (y 1).val = (y 1).val by omega)

/-- An index of the output array is in point `t`'s block iff each coordinate is in the block's range on its axis. -/
theorem mem_block0 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v17).slice (win0_4.rect t)).set ↔ _
  rw [View.set_slice_whole, Rect.mem_set_unit]
  exact Iff.rfl

/-- The 20 output blocks tile the array: row `p` is in block `p / 5000`. -/
theorem cover0 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := index_onto0 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_block0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE OUTPUT ARRAY of call 0 after its run: the layer, in its row form, of the arrays the call finds. -/
theorem region0 (c : Dev nD) :
    (dat0 (F := Ideal) V c).arrAt 4 cfg0.N = rowLayer (φ := .bf16) (V c main_arg0) (V c main_v13) (V c main_v15) (V c main_v16) :=
  (dat0 (F := Ideal) V c).arrAt_eq_of_cover 4 _ (fun t _ => flushed0 V c t) (cover0)

/-! ## Pallas call 1 -/

/-- The printed index maps of call 1, over its 20 grid points: the two feature windows and the output window sit at
    block `(t, 0)`; the weight and bias windows always at block `(0, 0)`. -/
theorem index_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 20 :=
  (by decide +kernel : ∀ t : Fin grid1.N, _)

/-- Every block of 5000 rows is some grid point's output block. -/
theorem index_onto1 : ∀ q0 : Fin 20, ∃ t : Fin cfg1.N, win1_4.index t = ![q0.val, 0] :=
  (by decide +kernel : ∀ q0 : Fin 20, ∃ t : Fin grid1.N, win1_4.index t = ![q0.val, 0])

/-- A feature block at point `t`, at `(r, k)`, is the array at row `5000 t + r`. -/
theorem block1_0 (c : Dev nD) (t : Fin cfg1.N) (y : S5000x128.Idx) (i : S100000x128.Idx)
    (h0 : (i 0).val = t.val * 5000 + (y 0).val) (h1 : (i 1).val = (y 1).val) :
    iblk1 V c 0 t y = V c main_v17 i := by
  obtain ⟨e00, e01, -⟩ := index_facts1 t
  show V c main_v17 (((cfg1.win 0).blk t).view.emb y) = V c main_v17 i
  refine congrArg (V c main_v17) (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The same for the block of neighbour sums. -/
theorem block1_1 (c : Dev nD) (t : Fin cfg1.N) (y : S5000x128.Idx) (i : S100000x128.Idx)
    (h0 : (i 0).val = t.val * 5000 + (y 0).val) (h1 : (i 1).val = (y 1).val) :
    iblk1 V c 1 t y = V c main_v27 i := by
  obtain ⟨-, -, e10, e11, -⟩ := index_facts1 t
  show V c main_v27 (((cfg1.win 1).blk t).view.emb y) = V c main_v27 i
  refine congrArg (V c main_v27) (funext fun a => Fin.ext ?_)
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- The weight window's block is the whole transposed weight matrix, at every point. -/
theorem block1_2 (c : Dev nD) (t : Fin cfg1.N) : iblk1 V c 2 t = V c main_v29 := by
  obtain ⟨-, -, -, -, e20, e21, -⟩ := index_facts1 t
  funext y
  show V c main_v29 (((cfg1.win 2).blk t).view.emb y) = V c main_v29 y
  refine congrArg (V c main_v29) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias window's block is the whole bias row, at every point. -/
theorem block1_3 (c : Dev nD) (t : Fin cfg1.N) : iblk1 V c 3 t = V c main_v30 := by
  obtain ⟨-, -, -, -, -, -, e30, e31, -⟩ := index_facts1 t
  funext y
  show V c main_v30 (((cfg1.win 3).blk t).view.emb y) = V c main_v30 y
  refine congrArg (V c main_v30) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- WHAT POINT `t` WRITES BACK is block `t` of the layer (in its row form) of the arrays the call finds. -/
theorem flushed1 (c : Dev nD) (t : Fin cfg1.N) :
    (dat1 (F := Ideal) V c).flushed 4 t
      = ((cfg1.win 4).blk t).view.read (Elt Ideal) (rowLayer (φ := .bf16) (V c main_v17) (V c main_v27) (V c main_v29) (V c main_v30)) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S128x128) hz, View.ld_unit_zero (S := S1x128) hz]
  obtain ⟨-, -, -, -, -, -, -, -, e40, e41, -⟩ := index_facts1 t
  funext y
  have hy0 : (y 0).val < 5000 := (y 0).isLt
  exact point_eq (V c main_v17) (V c main_v27) (V c main_v29) (V c main_v30) (iblk1 V c 0 t) (iblk1 V c 1 t) (iblk1 V c 2 t) (iblk1 V c 3 t) t.val
    (k1_pay1 (F := Ideal) (iblk1 V c 0 t) (iblk1 V c 1 t) (iblk1 V c 2 t) (iblk1 V c 3 t))
    (pay1_apply (iblk1 V c 0 t) (iblk1 V c 1 t) (iblk1 V c 2 t) (iblk1 V c 3 t))
    (block1_2 V c t) (block1_3 V c t)
    (fun y i h0 h1 => block1_0 V c t y i h0 h1) (fun y i h0 h1 => block1_1 V c t y i h0 h1) y
    (((cfg1.win 4).blk t).view.emb y)
    (show win1_4.index t (0 : Fin 2) * 5000 + 1 * (y 0).val = t.val * 5000 + (y 0).val by omega)
    (show win1_4.index t (1 : Fin 2) * 128 + 1 * (y 1).val = (y 1).val by omega)

/-- An index of the output array is in point `t`'s block iff each coordinate is in the block's range on its axis. -/
theorem mem_block1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v31).slice (win1_4.rect t)).set ↔ _
  rw [View.set_slice_whole, Rect.mem_set_unit]
  exact Iff.rfl

/-- The 20 output blocks tile the array: row `p` is in block `p / 5000`. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := index_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_block1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE OUTPUT ARRAY of call 1 after its run: the layer, in its row form, of the arrays the call finds. -/
theorem region1 (c : Dev nD) :
    (dat1 (F := Ideal) V c).arrAt 4 cfg1.N = rowLayer (φ := .bf16) (V c main_v17) (V c main_v27) (V c main_v29) (V c main_v30) :=
  (dat1 (F := Ideal) V c).arrAt_eq_of_cover 4 _ (fun t _ => flushed1 V c t) (cover1)

end Cert.Gin.Kernel

end
-- ==== Proof.KernelHost.lean ====
/-
  The kernel program's two results as the layer function of its arguments.

  Around the two pallas calls the program computes on the host: the edges' source and destination rows from the edge
  list, the neighbour sums of a feature array along them (a gather of source rows scatter-added, from zero, into
  destination rows), the weights transposed and narrowed to bf16, and the bias reshaped to one row. The first call finds
  the input features, their neighbour sums, the first weights and the first bias, and leaves the layer of them: the
  hidden features. The host then sums the hidden features' neighbours, and the second call leaves the layer of the
  hidden features, their neighbour sums, the second weights and the second bias: the output features. Each array a call
  finds is read off the host operations before it; what a call leaves is the previous module's whole-array result; and
  the row form of the layer (transposed weights, bias row) is the layer itself.
-/
import proofs.«120102_j72043781423169_1_alg».proof.Proof.Gen.KernelIdeal.Frame
import proofs.«120102_j72043781423169_1_alg».proof.Proof.KernelRegion
import proofs.«120102_j72043781423169_1_alg».proof.Proof.GinLayer
import Idealize.ShloMosaic.Lib.StableHlo.Run

set_option maxRecDepth 16384

noncomputable section

namespace Cert.Gin.Kernel

open Cert.KernelIdeal Cert.KernelIdeal.Gen Cert.Gin
open Idealize.ShloMosaic Idealize.ShloMosaic.TcCoe Idealize.SL.Sem Idealize.ShloMosaic.StableHlo
open Idealize.ShloMosaic.Pipeline (Dat)

/-- The edges' source nodes: row 0 of the edge list. -/
def src (e : IVec S2x1600000 32) : IVec S1600000 32 :=
  shapeCast S1600000 (extractStridedSlice S1x1600000 ![0, 0] e slices_S2x1600000_S1x1600000_0_0) shapeCasts_S1x1600000_S1600000

/-- The edges' destination nodes: row 1 of the edge list. -/
def dst (e : IVec S2x1600000 32) : IVec S1600000 32 :=
  shapeCast S1600000 (extractStridedSlice S1x1600000 ![1, 0] e slices_S2x1600000_S1x1600000_1_0) shapeCasts_S1x1600000_S1600000

/-- The neighbour sums of the feature array `a` over edges with sources `sr` and destinations `ds`: rows of `a` gathered
    at the sources (a negative index counted from the end) and scatter-added, from zero, into the destination rows. -/
def sumsOver (a : FVec Ideal S100000x128 .f32) (sr ds : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 ds)
    (Host.gather gather_S100000x128_S1600000x1_S1600000x128_1_0_n_n_0_1_1128 a
      (broadcastInDim S1600000x1 ![0] bcast_S1600000_S1600000x1_0
        (select (cmpi .slt sr (broadcastInDim S1600000 ![] bcast_S_S1600000 (constantI S_ 32 0#32)))
          (addi sr (broadcastInDim S1600000 ![] bcast_S_S1600000 (constantI S_ 32 100000#32))) sr)))

/-- The neighbour sums of `a` along the edge list `e`. -/
def agg (a : FVec Ideal S100000x128 .f32) (e : IVec S2x1600000 32) : FVec Ideal S100000x128 .f32 :=
  sumsOver a (src e) (dst e)

/-- The row form of the layer depends only on its four arrays. -/
theorem rowLayer_congr {a a' s s' : FVec Ideal Nodes .f32} {wt wt' : FVec Ideal Weights .bf16} {br br' : FVec Ideal BiasRow .f32}
    (ha : a = a') (hs : s = s') (hw : wt = wt') (hb : br = br') : rowLayer a s wt br = rowLayer a' s' wt' br' := by
  subst ha; subst hs; subst hw; subst hb; rfl

variable (m : (ℓ : Loc nD τ sig) → Buf (Elt Ideal) ℓ) (ρ : Dev nD → PrngReg)

/-- The hidden features: one layer over the input features. -/
def hid (c : Dev nD) : FVec Ideal Nodes .f32 :=
  layer (m ((c.tc : Thread nD τ).loc main_arg0)) (agg (m ((c.tc : Thread nD τ).loc main_arg0)) (m ((c.tc : Thread nD τ).loc main_arg1)))
    (m ((c.tc : Thread nD τ).loc main_arg2)) (m ((c.tc : Thread nD τ).loc main_arg3))

/-- The output features: one more layer over the hidden features. -/
def out (c : Dev nD) : FVec Ideal Nodes .f32 :=
  layer (hid m c) (agg (hid m c) (m ((c.tc : Thread nD τ).loc main_arg1)))
    (m ((c.tc : Thread nD τ).loc main_arg4)) (m ((c.tc : Thread nD τ).loc main_arg5))

/-! ## What the first call finds -/

theorem entry0_features (c : Dev nD) : V1 m ρ c main_arg0 = m ((c.tc : Thread nD τ).loc main_arg0) := by
  show StableHlo.after hostOps0 (W0 m ρ c) (Proc.devRef .tc main_arg0) = _
  dsimp only [hostOps0]; after_results

theorem entry0_sums (c : Dev nD) :
    V1 m ρ c main_v13 = agg (m ((c.tc : Thread nD τ).loc main_arg0)) (m ((c.tc : Thread nD τ).loc main_arg1)) := by
  show StableHlo.after hostOps0 (W0 m ρ c) (Proc.devRef .tc main_v13) = _
  dsimp only [hostOps0]; after_results; rfl

theorem entry0_weights (c : Dev nD) :
    V1 m ρ c main_v15 = truncf (F := Ideal) .bf16 (transpose S128x128 [1, 0] (m ((c.tc : Thread nD τ).loc main_arg2)) transposes_S128x128_S128x128_1_0) bitsLt_bf16_f32 := by
  show StableHlo.after hostOps0 (W0 m ρ c) (Proc.devRef .tc main_v15) = _
  dsimp only [hostOps0]; after_results

theorem entry0_bias (c : Dev nD) :
    V1 m ρ c main_v16 = shapeCast S1x128 (m ((c.tc : Thread nD τ).loc main_arg3)) shapeCasts_S128_S1x128 := by
  show StableHlo.after hostOps0 (W0 m ρ c) (Proc.devRef .tc main_v16) = _
  dsimp only [hostOps0]; after_results; rfl

/-- THE FIRST CALL leaves the hidden features in its output array. -/
theorem call0 (c : Dev nD) : (dat0 (F := Ideal) (V1 m ρ) c).arrAt 4 cfg0.N = hid m c :=
  (region0 (V1 m ρ) c).trans
    ((rowLayer_congr (entry0_features m ρ c) (entry0_sums m ρ c) (entry0_weights m ρ c) (entry0_bias m ρ c)).trans
      (rowLayer_transposed _ _ _ _ transposes_S128x128_S128x128_1_0 bitsLt_bf16_f32 shapeCasts_S128_S1x128))

/-! ## Between the calls -/

/-- After the first call its output buffer holds the hidden features. -/
theorem mid_hid (c : Dev nD) : W2 m ρ c (Proc.devRef .tc main_v17) = hid m c :=
  (W2_arr m ρ c 4).trans (call0 m ρ c)

theorem mid_src (c : Dev nD) : W2 m ρ c (Proc.devRef .tc main_v1) = src (m ((c.tc : Thread nD τ).loc main_arg1)) := by
  refine (W2_of_ne m ρ c main_v1 (by decide)).trans ?_
  show StableHlo.after hostOps0 (W0 m ρ c) (Proc.devRef .tc main_v1) = _
  dsimp only [hostOps0]; after_results; rfl

theorem mid_dst (c : Dev nD) : W2 m ρ c (Proc.devRef .tc main_v3) = dst (m ((c.tc : Thread nD τ).loc main_arg1)) := by
  refine (W2_of_ne m ρ c main_v3 (by decide)).trans ?_
  show StableHlo.after hostOps0 (W0 m ρ c) (Proc.devRef .tc main_v3) = _
  dsimp only [hostOps0]; after_results; rfl

theorem mid_weights (c : Dev nD) : W2 m ρ c (Proc.devRef .tc main_arg4) = m ((c.tc : Thread nD τ).loc main_arg4) := by
  refine (W2_of_ne m ρ c main_arg4 (by decide)).trans ?_
  show StableHlo.after hostOps0 (W0 m ρ c) (Proc.devRef .tc main_arg4) = _
  dsimp only [hostOps0]; after_results

theorem mid_bias (c : Dev nD) : W2 m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = _
  dsimp only [hostOps0]; after_results

/-! ## What the second call finds -/

theorem entry1_features (c : Dev nD) : V3 m ρ c main_v17 = hid m c := by
  refine Eq.trans ?_ (mid_hid m ρ c)
  show StableHlo.after hostOps1 (W2 m ρ c) (Proc.devRef .tc main_v17) = _
  dsimp only [hostOps1]; after_results

theorem entry1_sums (c : Dev nD) : V3 m ρ c main_v27 = agg (hid m c) (m ((c.tc : Thread nD τ).loc main_arg1)) := by
  have h : V3 m ρ c main_v27 = sumsOver (W2 m ρ c (Proc.devRef .tc main_v17)) (W2 m ρ c (Proc.devRef .tc main_v1)) (W2 m ρ c (Proc.devRef .tc main_v3)) := by
    show StableHlo.after hostOps1 (W2 m ρ c) (Proc.devRef .tc main_v27) = _
    dsimp only [hostOps1]; after_results; rfl
  rw [h, mid_hid, mid_src, mid_dst]; rfl

theorem entry1_weights (c : Dev nD) :
    V3 m ρ c main_v29 = truncf (F := Ideal) .bf16 (transpose S128x128 [1, 0] (m ((c.tc : Thread nD τ).loc main_arg4)) transposes_S128x128_S128x128_1_0) bitsLt_bf16_f32 := by
  have h : V3 m ρ c main_v29 = truncf (F := Ideal) .bf16 (transpose S128x128 [1, 0] (W2 m ρ c (Proc.devRef .tc main_arg4)) transposes_S128x128_S128x128_1_0) bitsLt_bf16_f32 := by
    show StableHlo.after hostOps1 (W2 m ρ c) (Proc.devRef .tc main_v29) = _
    dsimp only [hostOps1]; after_results
  rw [h, mid_weights]

theorem entry1_bias (c : Dev nD) :
    V3 m ρ c main_v30 = shapeCast S1x128 (m ((c.tc : Thread nD τ).loc main_arg5)) shapeCasts_S128_S1x128 := by
  have h : V3 m ρ c main_v30 = shapeCast S1x128 (W2 m ρ c (Proc.devRef .tc main_arg5)) shapeCasts_S128_S1x128 := by
    show StableHlo.after hostOps1 (W2 m ρ c) (Proc.devRef .tc main_v30) = _
    dsimp only [hostOps1]; after_results; rfl
  rw [h, mid_bias]

/-- THE SECOND CALL leaves the output features in its output array. -/
theorem call1 (c : Dev nD) : (dat1 (F := Ideal) (V3 m ρ) c).arrAt 4 cfg1.N = out m c :=
  (region1 (V3 m ρ) c).trans
    ((rowLayer_congr (entry1_features m ρ c) (entry1_sums m ρ c) (entry1_weights m ρ c) (entry1_bias m ρ c)).trans
      (rowLayer_transposed _ _ _ _ transposes_S128x128_S128x128_1_0 bitsLt_bf16_f32 shapeCasts_S128_S1x128))

/-! ## The two results at the end of the run -/

/-- The second result buffer ends at the output features. -/
theorem final_out (c : Dev nD) : W4 m ρ c (Proc.devRef .tc main_v31) = out m c :=
  (W4_arr m ρ c 4).trans (call1 m ρ c)

/-- The first result buffer, which the second call only reads, still holds the hidden features. -/
theorem final_hid (c : Dev nD) : W4 m ρ c (Proc.devRef .tc main_v17) = hid m c :=
  calc W4 m ρ c (Proc.devRef .tc main_v17)
    _ = V3 m ρ c main_v17 :=
        (W4_arr m ρ c 0).trans (((dat1 (F := Ideal) (V3 m ρ) c).arrAt_in 0 rfl _).trans (A_eq1 (V3 m ρ) c 0))
    _ = hid m c := entry1_features m ρ c

end Cert.Gin.Kernel

end
-- ==== Proof.RefSide.lean ====
/-
  The reference program's two results as the layer function.

  The reference computes, twice over, `(y + agg y) · Wᵀ + b`: the neighbour sums `agg y` of a feature array `y` along the
  edge list (a gather of source rows, scatter-added into destination rows), added to `y`; the product with the
  transposed weights; the bias broadcast over the rows. Read at node `p` and feature `q` the product is the sum over
  `k` of `(y[p,k] + agg y[p,k]) · W[q,k]` and the broadcast bias is `b[q]`: the layer function. The neighbour sums are
  never opened: both layers apply the same function of the feature array and the edge list.
-/
import proofs.«120102_j72043781423169_1_alg».proof.Proof.Gen.ReferenceIdeal.Read
import proofs.«120102_j72043781423169_1_alg».proof.Proof.GinLayer
import proofs.«120102_j72043781423169_1_alg».proof.Proof.LibPlainDot
import Idealize.ShloMosaic.Lib.ValueLayout
import Idealize.ShloMosaic.Lib.Pipeline.Value

noncomputable section

open scoped BigOperators

namespace Cert.Gin.Ref

open Cert.ReferenceIdeal Cert.ReferenceIdeal.Gen Cert.ReferenceIdeal.Read
open Idealize.ShloMosaic Idealize.ShloMosaic.TcCoe Idealize.ShloMosaic.ValueIdx Cert.Gin

/-- The neighbour sums of the feature array `a` along the edge list `e`: rows of `a` gathered at the edges' source nodes
    (a negative source index counted from the end) and scatter-added, from zero, into the edges' destination rows. -/
def agg (a : FVec Ideal S100000x128 .f32) (e : IVec S2x1600000 32) : FVec Ideal S100000x128 .f32 :=
  Host.scatterAdd (F := Ideal) scatter_S100000x128_S1600000x1_S1600000x128_1_0_0_1 (val_main_v11 (F := Ideal)) (val_main_v12 (F := Ideal) e)
    (Host.gather gather_S100000x128_S1600000x1_S1600000x128_1_0_n_n_0_1_1128 a (val_main_v9 (F := Ideal) e))

/-- The first layer's neighbour sums are `agg` of the input features. -/
theorem sums1 (x0 : (⟨S100000x128, .f32⟩ : BufTy).Contents (Elt Ideal)) (x1 : (⟨S2x1600000, .i32⟩ : BufTy).Contents (Elt Ideal)) :
    val_main_v13 (F := Ideal) x0 x1 = agg x0 x1 := rfl

/-- The second layer's neighbour sums are `agg` of the first layer's result: the same index arithmetic on the same edge list. -/
theorem sums2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v29 (F := Ideal) x0 x1 x2 x3 = agg (val_main_v19 (F := Ideal) x0 x1 x2 x3) x1 := rfl

/-- The host's product of a feature array with a 128×128 matrix, at `(p, q)`: the sum over `k` of `l[p,k] · r[k,q]`. -/
theorem dot_apply (l : FVec Ideal S100000x128 .f32) (r : FVec Ideal S128x128 .f32) (p : Fin 100000) (q : Fin 128) :
    Host.dotGeneral (F := Ideal) dot_S100000x128_S128x128_S100000x128_1_0_0_1_n_n none l r (ix2 p q)
      = ∑ k : Fin 128, l (ix2 p k) * r (ix2 k q) := by
  simp only [Host.dotGeneral]
  exact Cert.PlainDot.dotGeneral_apply (M := 100000) (K := 128) (N := 128) none _ l r p q

/-- The bias broadcast first to a row and then over all rows reads `b[q]` at `(p, q)`. -/
theorem bias_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  show val_main_v18 (F := Ideal) b (ix2 p q) = b (ix1 q)
  rw [val_main_v18_apply, val_main_v17_apply]
  exact congrArg b (funext fun a => match a with | ⟨0, _⟩ => rfl)

/-- One layer as the host computes it is the layer function. -/
theorem hostLayer (y s : FVec Ideal S100000x128 .f32) (W : FVec Ideal S128x128 .f32) (b : FVec Ideal S128 .f32) :
    addf (Host.dotGeneral (F := Ideal) dot_S100000x128_S128x128_S100000x128_1_0_0_1_n_n none (addf y s)
        (transpose S128x128 [1, 0] W transposes_S128x128_S128x128_1_0))
      (broadcastInDim S100000x128 ![0, 1] bcast_S1x128_S100000x128_0_1 (broadcastInDim S1x128 ![1] bcast_S128_S1x128_1 b))
      = layer y s W b := by
  funext i
  obtain ⟨p, q, rfl⟩ : ∃ (p : Fin 100000) (q : Fin 128), i = ix2 p q := ⟨i 0, i 1, eq_ix2 i⟩
  rw [addf_apply, dot_apply, bias_apply, layer_apply]
  unfold layerAt
  refine congrArg (· + b (ix1 q)) (Finset.sum_congr rfl fun k _ => ?_)
  rw [addf_apply, transpose_ix2_apply W transposes_S128x128_S128x128_1_0 k q]

/-- The reference's first result (the hidden features): one layer over the input features. -/
theorem hid_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v19 (F := Ideal) x0 x1 x2 x3 = layer x0 (agg x0 x1) x2 x3 := by
  rw [← sums1]
  exact hostLayer x0 (val_main_v13 (F := Ideal) x0 x1) x2 x3

/-- The reference's second result (the output features): one more layer over the hidden features. -/
theorem out_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v35 (F := Ideal) x0 x1 x2 x3 x4 x5
      = layer (val_main_v19 (F := Ideal) x0 x1 x2 x3) (agg (val_main_v19 (F := Ideal) x0 x1 x2 x3) x1) x4 x5 := by
  rw [← sums2]
  exact hostLayer (val_main_v19 (F := Ideal) x0 x1 x2 x3) (val_main_v29 (F := Ideal) x0 x1 x2 x3) x4 x5

end Cert.Gin.Ref

end
-- ==== Proof.lean ====
/-
  Two layers of a graph network: the kernel program against its reference, at exact values.

  Both programs compute, from node features `x`, an edge list `e`, weights `W1`, `W2` and biases `b1`, `b2`,

      hid = layer x   (agg x   e) W1 b1,        out = layer hid (agg hid e) W2 b2,

  where `agg y e` sums, into each node's row, the rows of `y` at the sources of the edges that end there, and
  `layer y s W b` at node `p`, feature `q` is `Σ_k (y[p,k] + s[p,k]) · W[q,k] + b[q]`. The reference spells the layer as a
  sum of two arrays, a product with the transposed weights and a broadcast bias; the kernel program computes the
  neighbour sums on the host with the same operations and the layer in a pallas call, 5000 rows at a time, from the
  transposed weights narrowed to bf16 (the identity on exact values) and the bias as one row, its product taken into a
  zero accumulator. Read at an index both are the same sum of the same products, so no entry needs to be finite and the
  precondition is never opened; the neighbour sums are never opened either, being one function of the feature array
  and the edge list in both programs.

  The frames of the two kernel programs are the generated ones; the reference's frame is its generated run with the
  results dropped; the idealization rewrote nothing, so it is preserved trivially.
-/
import proofs.«120102_j72043781423169_1_alg».proof.Defs
import proofs.«120102_j72043781423169_1_alg».proof.Proof.Gen.Kernel
import proofs.«120102_j72043781423169_1_alg».proof.Proof.Gen.Kernel.Frame
import proofs.«120102_j72043781423169_1_alg».proof.Proof.Gen.KernelIdeal
import proofs.«120102_j72043781423169_1_alg».proof.Proof.Gen.KernelIdeal.Frame
import proofs.«120102_j72043781423169_1_alg».proof.Proof.Gen.ReferenceIdeal
import proofs.«120102_j72043781423169_1_alg».proof.Proof.Gen.ReferenceIdeal.Read
import proofs.«120102_j72043781423169_1_alg».proof.Proof.Gen.Pre_finite_inputs
import proofs.«120102_j72043781423169_1_alg».proof.Proof.KernelRun
import proofs.«120102_j72043781423169_1_alg».proof.Proof.KernelHost
import proofs.«120102_j72043781423169_1_alg».proof.Proof.RefSide
import Idealize.ShloMosaic.Adequacy
import Idealize.ShloMosaic.Init

noncomputable section

namespace Cert.Proof

open Idealize.ShloMosaic Idealize.ShloMosaic.TcCoe Idealize.SL.Sem

/-- The neighbour sums are one function in the two programs: the same gather and scatter-add over the same index
    arithmetic on the edge list. -/
theorem agg_eq (a : (⟨Cert.KernelIdeal.S100000x128, .f32⟩ : BufTy).Contents (Elt Ideal))
    (e : (⟨Cert.KernelIdeal.S2x1600000, .i32⟩ : BufTy).Contents (Elt Ideal)) :
    Cert.Gin.Ref.agg a e = Cert.Gin.Kernel.agg a e := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the output features at `out` and the hidden features at `hid` of the arguments. -/
theorem algebraic : Cert.algebraic_KernelIdeal_ReferenceIdeal := by
  intro m ρ m' ρ' _ hagree
  refine ⟨fun c => Cert.Gin.Kernel.out m c, fun c => Cert.Gin.Kernel.hid m c, ?_, ?_⟩
  · exact (θ_run Cert.KernelIdeal.defs _ _).mono
      (fun r h c => ⟨(h c).1.trans (Cert.Gin.Kernel.final_out m ρ c), (h c).2.1.trans (Cert.Gin.Kernel.final_hid m ρ c), (h c).2.2⟩)
      (Cert.Gin.Kernel.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5⟩ := hagree c
      rw [Cert.ReferenceIdeal.Read.val_main_v35_eq, Cert.Gin.Ref.out_eq, Cert.Gin.Ref.hid_eq, h0, h1, h2, h3, h4, h5]
      unfold Cert.Gin.Kernel.out Cert.Gin.Kernel.hid
      rw [agg_eq, agg_eq]
    · obtain ⟨h0, h1, h2, h3, h4, h5⟩ := hagree c
      rw [Cert.ReferenceIdeal.Read.val_main_v19_eq, Cert.Gin.Ref.hid_eq, h0, h1, h2, h3]
      unfold Cert.Gin.Kernel.hid
      rw [agg_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
